-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x256 .f32) (main_arg5 : FVec F S128 .f32) (main_arg6 : FVec F S128x256 .f32) (main_arg7 : FVec F S128 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S100000x128 .f32) (main_arg2 : FVec F S100000x128 .f32) (main_arg3 : FVec F S100000x128 .f32) (main_arg4 : FVec F S128x256 .f32) (main_arg5 : FVec F S128 .f32) (main_arg6 : FVec F S128x256 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S100000x128 .f32 := Host.absf main_arg3
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg4 main_arg5 main_arg6 main_arg7 main_v13 main_v16
-- ==== Kernel.lean ====
abbrev S100000x128 : Shape := ⟨2, ![100000, 128]⟩
abbrev S128x256 : Shape := ⟨2, ![128, 256]⟩
abbrev S128 : Shape := ⟨1, ![128]⟩
abbrev S1x128 : Shape := ⟨2, ![1, 128]⟩
abbrev S5000x128 : Shape := ⟨2, ![5000, 128]⟩
abbrev S128x128 : Shape := ⟨2, ![128, 128]⟩

abbrev nBuf : Space → Nat
  | .hbm => 12
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S100000x128, .f32⟩
  | .hbm, ⟨11, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x256, .f32⟩
  | .local _ .vmem, ⟨9, _⟩ => ⟨S1x128, .f32⟩
  | .local _ .vmem, ⟨10, _⟩ => ⟨S128x256, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![20, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S128_S1x128 : S128.ShapeCasts S1x128
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  slices_S128x256_o0_0_S128x128 : S128x256.Slices ![0, 0] S128x128
  slices_S128x256_o0_128_S128x128 : S128x256.Slices ![0, 128] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)

variable [Facts₀]

def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond1 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S100000x128 : Shape := ⟨2, ![100000, 128]⟩
abbrev S128x256 : Shape := ⟨2, ![128, 256]⟩
abbrev S128 : Shape := ⟨1, ![128]⟩
abbrev S100000x256 : Shape := ⟨2, ![100000, 256]⟩
abbrev S256x128 : Shape := ⟨2, ![256, 128]⟩
abbrev S1x128 : Shape := ⟨2, ![1, 128]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S100000x256, .f32⟩
  | .hbm, ⟨9, _⟩ => ⟨S256x128, .f32⟩
  | .hbm, ⟨10, _⟩ => ⟨S100000x128, .f32⟩
  | .hbm, ⟨11, _⟩ => ⟨S1x128, .f32⟩
  | .hbm, ⟨12, _⟩ => ⟨S100000x128, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S100000x256, .f32⟩
  | .hbm, ⟨29, _⟩ => ⟨S256x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  dot_S100000x256_S256x128_S100000x128_1_0_0_1_n_n_wf : DotDims.WF S100000x256 S256x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KernelBody.lean ====
import proofs.«134723_g42941083026054_cont_8to1_b_680_23_alg».proof.Proof.Gen.Kernel.Frame
import proofs.«134723_g42941083026054_cont_8to1_b_680_23_alg».proof.Proof.Gen.Kernel.Skeleton
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The two branch conditions, over the grid

The grid is 20 row blocks by 2 phases, the phase the fast axis: point `t` is row block `t / 2` in phase `t % 2`.
The first branch (the gate over the first pair of inputs) is taken in phase 0, the second in phase 1. -/

abbrev condI (i : grid0.Coords) : Prop := k0_cond1 i = 1#1
abbrev condC (i : grid0.Coords) : Prop := k0_cond2 i = 1#1

theorem hcondI : ∀ t : Fin cfg0.N, condI (grid0.coords t) ↔ t.val % 2 = 0 :=
  (by decide +kernel : ∀ t : Fin grid0.N, condI (grid0.coords t) ↔ t.val % 2 = 0)
theorem hcondC : ∀ t : Fin cfg0.N, condC (grid0.coords t) ↔ t.val % 2 = 1 :=
  (by decide +kernel : ∀ t : Fin grid0.N, condC (grid0.coords t) ↔ t.val % 2 = 1)

/-- The first output's buffer is left alone exactly in phase 1, the second's exactly in phase 0. -/
theorem idle8 : ∀ t : Fin cfg0.N, cfg0.idle 8 (grid0.coords t) = true ↔ t.val % 2 = 1 :=
  (by decide +kernel : ∀ t : Fin grid0.N, idle0 8 (grid0.coords t) = true ↔ t.val % 2 = 1)
theorem idle9 : ∀ t : Fin cfg0.N, cfg0.idle 9 (grid0.coords t) = true ↔ t.val % 2 = 0 :=
  (by decide +kernel : ∀ t : Fin grid0.N, idle0 9 (grid0.coords t) = true ↔ t.val % 2 = 0)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel

theorem hz2 : (![0, 0] : Fin 2 → Nat) = fun _ => 0 := funext fun a => by fin_cases a <;> rfl

/-! ## The body, phase by phase -/

set_option maxHeartbeats 1000000 in
/-- Phase 0: the body reads the first pair of row blocks, the first weight matrix and the first bias, and
    stores the gated blend of the pair into the whole first output buffer; every other buffer is handed back as found. -/
theorem runI (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S128x256 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : condI i) (hc1 : ¬condC i)
    (x0 : Vec F S5000x128 .f32) (x1 : Vec F S5000x128 .f32) (x2 : Vec F S5000x128 .f32) (x3 : Vec F S5000x128 .f32) (x4 : Vec F S128x256 .f32) (x5 : Vec F S1x128 .f32) (x6 : Vec F S128x256 .f32) (x7 : Vec F S1x128 .f32) (x9 : Vec F S5000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay1 x4 x0 x1 x5) ∗ owns (c : Thread nD τ) arg11 fullShare x9) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      rw [View.read_writes_eq_canon _ _ _ (fun y => ⟨_, List.mem_singleton_self _, View.mem_set_unit_zero hz2 inb_S5000x128_S5000x128_0_0 y⟩),
        View.canon_unit_zero hz2]
      simp only [View.readAt_eq_ld, Memref.IsWhole.read_unread, View.ld_unit_zero (S := S5000x128) hz2,
        View.ld_unit_zero (S := S128x256) hz2, View.ld_unit_zero (S := S1x128) hz2]
    iexists _; isplitr; swap; · iexact H9
    ipureintro; exact hf9

set_option maxHeartbeats 1000000 in
/-- Phase 1: the same over the second pair of row blocks, the second weight matrix and bias, into the second output buffer. -/
theorem runC (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S128x256 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : ¬condI i) (hc1 : condC i)
    (x0 : Vec F S5000x128 .f32) (x1 : Vec F S5000x128 .f32) (x2 : Vec F S5000x128 .f32) (x3 : Vec F S5000x128 .f32) (x4 : Vec F S128x256 .f32) (x5 : Vec F S1x128 .f32) (x6 : Vec F S128x256 .f32) (x7 : Vec F S1x128 .f32) (x8 : Vec F S5000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay2 x6 x2 x3 x7)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro; exact hf8
    iexists _; isplitr; swap; · iexact H9
    ipureintro
    rw [View.read_writes_eq_canon _ _ _ (fun y => ⟨_, List.mem_singleton_self _, View.mem_set_unit_zero hz2 inb_S5000x128_S5000x128_0_0 y⟩),
      View.canon_unit_zero hz2]
    simp only [View.readAt_eq_ld, Memref.IsWhole.read_unread, View.ld_unit_zero (S := S5000x128) hz2,
      View.ld_unit_zero (S := S128x256) hz2, View.ld_unit_zero (S := S1x128) hz2]

end Cert.Kernel.Body

end
-- ==== Proof.KernelFrame.lean ====
import proofs.«134723_g42941083026054_cont_8to1_b_680_23_alg».proof.Proof.KernelBody

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## The staging buffers at a point -/

abbrev ms0 (t : Fin cfg0.N) : Memref sig .tc .vmem S5000x128 .f32 := win0_0.stage (cfg0.slots t 0)
abbrev ms1 (t : Fin cfg0.N) : Memref sig .tc .vmem S5000x128 .f32 := win0_1.stage (cfg0.slots t 1)
abbrev ms2 (t : Fin cfg0.N) : Memref sig .tc .vmem S5000x128 .f32 := win0_2.stage (cfg0.slots t 2)
abbrev ms3 (t : Fin cfg0.N) : Memref sig .tc .vmem S5000x128 .f32 := win0_3.stage (cfg0.slots t 3)
abbrev ms4 (t : Fin cfg0.N) : Memref sig .tc .vmem S128x256 .f32 := win0_4.stage (cfg0.slots t 4)
abbrev ms5 (t : Fin cfg0.N) : Memref sig .tc .vmem S1x128 .f32 := win0_5.stage (cfg0.slots t 5)
abbrev ms6 (t : Fin cfg0.N) : Memref sig .tc .vmem S128x256 .f32 := win0_6.stage (cfg0.slots t 6)
abbrev ms7 (t : Fin cfg0.N) : Memref sig .tc .vmem S1x128 .f32 := win0_7.stage (cfg0.slots t 7)
abbrev ms8 (t : Fin cfg0.N) : Memref sig .tc .vmem S5000x128 .f32 := win0_8.stage (cfg0.slots t 8)
abbrev ms9 (t : Fin cfg0.N) : Memref sig .tc .vmem S5000x128 .f32 := win0_9.stage (cfg0.slots t 9)

/-! ## What the two output buffers hold after each point

Both outputs are cut into the same 20 row blocks, and a row block's two phases are consecutive points: the first
output's block is computed in phase 0 and stays in its buffer, untouched, through phase 1, after which it is written
back; the second output's block is computed in phase 1 and written back at once. -/

/-- The phase-0 point of `t`'s row block. -/
def phase0 (t : Fin cfg0.N) : Fin cfg0.N := ⟨t.val - t.val % 2, Nat.lt_of_le_of_lt (Nat.sub_le _ _) t.isLt⟩

theorem phase0_even (t : Fin cfg0.N) (h : t.val % 2 = 0) : phase0 t = t := Fin.ext (by simp only [phase0]; omega)

/-- The gated blend of the first pair's row blocks at point `t`. -/
def blendI (c : Dev nD) (t : Fin cfg0.N) : Vec F S5000x128 .f32 :=
  k0_pay1 (iblk m c 4 t) (iblk m c 0 t) (iblk m c 1 t) (iblk m c 5 t)
/-- The gated blend of the second pair's row blocks at point `t`. -/
def blendC (c : Dev nD) (t : Fin cfg0.N) : Vec F S5000x128 .f32 :=
  k0_pay2 (iblk m c 6 t) (iblk m c 2 t) (iblk m c 3 t) (iblk m c 7 t)

/-- The proof data: every input buffer at its block; the first output's buffer at its row block's phase-0 blend in
    BOTH phases; the second output's at the phase-1 blend (consulted only in phase 1). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blendI m c (phase0 t)
    | ⟨9, _⟩ => blendC m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = blendI m c (phase0 t) := by dsimp only [dats]
theorem after9 (c : Dev nD) (t : Fin cfg0.N) : (dats m 0 c).after 9 t = blendC m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- In phase 1 the first output's buffer still holds what phase 0 left: the point before is the same row block's
    phase 0, it did not write the block back, and it was not idle for the window. -/
theorem before8_phase1 (c : Dev nD) (t : Fin cfg0.N) (h : t.val % 2 = 1) (d) :
    (dats m 0 c).before 8 t d = (dats m 0 c).after 8 t := by
  have ht : t.val ≠ 0 := by omega
  have hfl : (cfg0.win 8).flush ⟨t.val - 1, Nat.lt_of_le_of_lt (Nat.sub_le _ _) t.isLt⟩ = false :=
    Bool.eq_false_iff.mpr fun hf => by have := (flush0_8 _).mp hf; dsimp only at this; omega
  have hid : cfg0.idle 8 (grid0.coords ⟨t.val - 1, Nat.lt_of_le_of_lt (Nat.sub_le _ _) t.isLt⟩) = false :=
    Bool.eq_false_iff.mpr fun hi => by have := (idle8 _).mp hi; dsimp only at this; omega
  rw [(dats m 0 c).before_of_pos 8 t ht ((cfg0.win 8).fetch_out rfl t), hfl, if_neg Bool.false_ne_true]
  unfold Dat.left; rw [hid]
  unfold Dat.kept
  rw [Pipeline.fill_of_clip_none 8 _ (fun _ => rfl) d ((dats m 0 c).after 8 _), Window.fill_cut]
  rw [after8, after8]
  exact congrArg (blendI m c) (Fin.ext (by simp only [phase0]; omega))

/-! ## What the body obligation asks of the two outputs' buffers -/

theorem leaves8 (c : Dev nD) (t : Fin cfg0.N) :
    (dats m 0 c).leavesExact 8 t = owns (c : Thread nD τ) (ms8 t) fullShare ((dats m 0 c).after 8 t) := by
  unfold Dat.leavesExact
  by_cases h : t.val % 2 = 1
  · rw [(idle8 t).mpr h, (flush0_8 t).mpr h]
  · rw [Bool.eq_false_iff.mpr (fun hi => h ((idle8 t).mp hi))]

theorem leaves9_phase0 (c : Dev nD) (t : Fin cfg0.N) (h : t.val % 2 = 0) :
    (dats m 0 c).leavesExact 9 t = iprop(∃ d, owns (c : Thread nD τ) (ms9 t) fullShare ((dats m 0 c).before 9 t d)) :=
  (dats m 0 c).leavesExact_idle 9 t ((idle9 t).mpr h) (Bool.eq_false_iff.mpr fun hf => by have := (flush0_9 t).mp hf; omega)

theorem leaves9_phase1 (c : Dev nD) (t : Fin cfg0.N) (h : t.val % 2 = 1) :
    (dats m 0 c).leavesExact 9 t = owns (c : Thread nD τ) (ms9 t) fullShare ((dats m 0 c).after 9 t) := by
  unfold Dat.leavesExact
  rw [show cfg0.idle 9 (grid0.coords t) = false from Bool.eq_false_iff.mpr (fun hi => by have := (idle9 t).mp hi; omega)]

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]
theorem leaves3 (c : Dev nD) (t : Fin cfg0.N) :
    (dats m 0 c).leavesExact 3 t = owns (c : Thread nD τ) (ms3 t) fullShare (iblk m c 3 t) := by
  unfold Dat.leavesExact; rw [live3 t, after3]
theorem leaves4 (c : Dev nD) (t : Fin cfg0.N) :
    (dats m 0 c).leavesExact 4 t = owns (c : Thread nD τ) (ms4 t) fullShare (iblk m c 4 t) := by
  unfold Dat.leavesExact; rw [live4 t, after4]
theorem leaves5 (c : Dev nD) (t : Fin cfg0.N) :
    (dats m 0 c).leavesExact 5 t = owns (c : Thread nD τ) (ms5 t) fullShare (iblk m c 5 t) := by
  unfold Dat.leavesExact; rw [live5 t, after5]
theorem leaves6 (c : Dev nD) (t : Fin cfg0.N) :
    (dats m 0 c).leavesExact 6 t = owns (c : Thread nD τ) (ms6 t) fullShare (iblk m c 6 t) := by
  unfold Dat.leavesExact; rw [live6 t, after6]
theorem leaves7 (c : Dev nD) (t : Fin cfg0.N) :
    (dats m 0 c).leavesExact 7 t = owns (c : Thread nD τ) (ms7 t) fullShare (iblk m c 7 t) := by
  unfold Dat.leavesExact; rw [live7 t, after7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- At any point: the inputs' buffers hold their blocks; the point's phase says which branch the body takes; in phase
    0 the second output's buffer passes through as found, in phase 1 the first output's does, and it holds what phase 0
    left there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves8]
  by_cases h0 : t.val % 2 = 0
  · have h1 : ¬ t.val % 2 = 1 := by omega
    rw [leaves9_phase0 m c t h0, after8, phase0_even t h0]
    unfold blendI
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runI c (grid0.coords t) _ _ _ _ _ _ _ _ _ _ _ _ _ _ _ _ _ _ _ _ ((hcondI t).mpr h0) (fun h => h1 ((hcondC t).mp h)) (iblk m c 0 t) (iblk m c 1 t) (iblk m c 2 t) (iblk m c 3 t) (iblk m c 4 t) (iblk m c 5 t) (iblk m c 6 t) (iblk m c 7 t) ((dats m 0 c).before 9 t d9)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9
  · have h1 : t.val % 2 = 1 := by omega
    simp only [before8_phase1 m c t h1]
    rw [leaves9_phase1 m c t h1, after9]
    unfold blendC
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runC c (grid0.coords t) _ _ _ _ _ _ _ _ _ _ _ _ _ _ _ _ _ _ _ _ (fun h => h0 ((hcondI t).mp h)) ((hcondC t).mpr h1) (iblk m c 0 t) (iblk m c 1 t) (iblk m c 2 t) (iblk m c 3 t) (iblk m c 4 t) (iblk m c 5 t) (iblk m c 6 t) (iblk m c 7 t) ((dats m 0 c).after 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates with every windowed array at what the write-backs of the
    proof data leave, every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.KernelIdealBody.lean ====
import proofs.«134723_g42941083026054_cont_8to1_b_680_23_alg».proof.Proof.Gen.KernelIdeal.Frame
import proofs.«134723_g42941083026054_cont_8to1_b_680_23_alg».proof.Proof.Gen.KernelIdeal.Skeleton
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The two branch conditions, over the grid

The grid is 20 row blocks by 2 phases, the phase the fast axis: point `t` is row block `t / 2` in phase `t % 2`.
The first branch (the gate over the first pair of inputs) is taken in phase 0, the second in phase 1. -/

abbrev condI (i : grid0.Coords) : Prop := k0_cond1 i = 1#1
abbrev condC (i : grid0.Coords) : Prop := k0_cond2 i = 1#1

theorem hcondI : ∀ t : Fin cfg0.N, condI (grid0.coords t) ↔ t.val % 2 = 0 :=
  (by decide +kernel : ∀ t : Fin grid0.N, condI (grid0.coords t) ↔ t.val % 2 = 0)
theorem hcondC : ∀ t : Fin cfg0.N, condC (grid0.coords t) ↔ t.val % 2 = 1 :=
  (by decide +kernel : ∀ t : Fin grid0.N, condC (grid0.coords t) ↔ t.val % 2 = 1)

/-- The first output's buffer is left alone exactly in phase 1, the second's exactly in phase 0. -/
theorem idle8 : ∀ t : Fin cfg0.N, cfg0.idle 8 (grid0.coords t) = true ↔ t.val % 2 = 1 :=
  (by decide +kernel : ∀ t : Fin grid0.N, idle0 8 (grid0.coords t) = true ↔ t.val % 2 = 1)
theorem idle9 : ∀ t : Fin cfg0.N, cfg0.idle 9 (grid0.coords t) = true ↔ t.val % 2 = 0 :=
  (by decide +kernel : ∀ t : Fin grid0.N, idle0 9 (grid0.coords t) = true ↔ t.val % 2 = 0)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel

theorem hz2 : (![0, 0] : Fin 2 → Nat) = fun _ => 0 := funext fun a => by fin_cases a <;> rfl

/-! ## The body, phase by phase -/

set_option maxHeartbeats 1000000 in
/-- Phase 0: the body reads the first pair of row blocks, the first weight matrix and the first bias, and
    stores the gated blend of the pair into the whole first output buffer; every other buffer is handed back as found. -/
theorem runI (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S128x256 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : condI i) (hc1 : ¬condC i)
    (x0 : Vec F S5000x128 .f32) (x1 : Vec F S5000x128 .f32) (x2 : Vec F S5000x128 .f32) (x3 : Vec F S5000x128 .f32) (x4 : Vec F S128x256 .f32) (x5 : Vec F S1x128 .f32) (x6 : Vec F S128x256 .f32) (x7 : Vec F S1x128 .f32) (x9 : Vec F S5000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay1 x4 x0 x1 x5) ∗ owns (c : Thread nD τ) arg11 fullShare x9) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      rw [View.read_writes_eq_canon _ _ _ (fun y => ⟨_, List.mem_singleton_self _, View.mem_set_unit_zero hz2 inb_S5000x128_S5000x128_0_0 y⟩),
        View.canon_unit_zero hz2]
      simp only [View.readAt_eq_ld, Memref.IsWhole.read_unread, View.ld_unit_zero (S := S5000x128) hz2,
        View.ld_unit_zero (S := S128x256) hz2, View.ld_unit_zero (S := S1x128) hz2]
    iexists _; isplitr; swap; · iexact H9
    ipureintro; exact hf9

set_option maxHeartbeats 1000000 in
/-- Phase 1: the same over the second pair of row blocks, the second weight matrix and bias, into the second output buffer. -/
theorem runC (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S128x256 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole) (hc0 : ¬condI i) (hc1 : condC i)
    (x0 : Vec F S5000x128 .f32) (x1 : Vec F S5000x128 .f32) (x2 : Vec F S5000x128 .f32) (x3 : Vec F S5000x128 .f32) (x4 : Vec F S128x256 .f32) (x5 : Vec F S1x128 .f32) (x6 : Vec F S128x256 .f32) (x7 : Vec F S1x128 .f32) (x8 : Vec F S5000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay2 x6 x2 x3 x7)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro; exact hf8
    iexists _; isplitr; swap; · iexact H9
    ipureintro
    rw [View.read_writes_eq_canon _ _ _ (fun y => ⟨_, List.mem_singleton_self _, View.mem_set_unit_zero hz2 inb_S5000x128_S5000x128_0_0 y⟩),
      View.canon_unit_zero hz2]
    simp only [View.readAt_eq_ld, Memref.IsWhole.read_unread, View.ld_unit_zero (S := S5000x128) hz2,
      View.ld_unit_zero (S := S128x256) hz2, View.ld_unit_zero (S := S1x128) hz2]

end Cert.KernelIdeal.Body

end
-- ==== Proof.KernelIdealFrame.lean ====
import proofs.«134723_g42941083026054_cont_8to1_b_680_23_alg».proof.Proof.KernelIdealBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## The staging buffers at a point -/

abbrev ms0 (t : Fin cfg0.N) : Memref sig .tc .vmem S5000x128 .f32 := win0_0.stage (cfg0.slots t 0)
abbrev ms1 (t : Fin cfg0.N) : Memref sig .tc .vmem S5000x128 .f32 := win0_1.stage (cfg0.slots t 1)
abbrev ms2 (t : Fin cfg0.N) : Memref sig .tc .vmem S5000x128 .f32 := win0_2.stage (cfg0.slots t 2)
abbrev ms3 (t : Fin cfg0.N) : Memref sig .tc .vmem S5000x128 .f32 := win0_3.stage (cfg0.slots t 3)
abbrev ms4 (t : Fin cfg0.N) : Memref sig .tc .vmem S128x256 .f32 := win0_4.stage (cfg0.slots t 4)
abbrev ms5 (t : Fin cfg0.N) : Memref sig .tc .vmem S1x128 .f32 := win0_5.stage (cfg0.slots t 5)
abbrev ms6 (t : Fin cfg0.N) : Memref sig .tc .vmem S128x256 .f32 := win0_6.stage (cfg0.slots t 6)
abbrev ms7 (t : Fin cfg0.N) : Memref sig .tc .vmem S1x128 .f32 := win0_7.stage (cfg0.slots t 7)
abbrev ms8 (t : Fin cfg0.N) : Memref sig .tc .vmem S5000x128 .f32 := win0_8.stage (cfg0.slots t 8)
abbrev ms9 (t : Fin cfg0.N) : Memref sig .tc .vmem S5000x128 .f32 := win0_9.stage (cfg0.slots t 9)

/-! ## What the two output buffers hold after each point

Both outputs are cut into the same 20 row blocks, and a row block's two phases are consecutive points: the first
output's block is computed in phase 0 and stays in its buffer, untouched, through phase 1, after which it is written
back; the second output's block is computed in phase 1 and written back at once. -/

/-- The phase-0 point of `t`'s row block. -/
def phase0 (t : Fin cfg0.N) : Fin cfg0.N := ⟨t.val - t.val % 2, Nat.lt_of_le_of_lt (Nat.sub_le _ _) t.isLt⟩

theorem phase0_even (t : Fin cfg0.N) (h : t.val % 2 = 0) : phase0 t = t := Fin.ext (by simp only [phase0]; omega)

/-- The gated blend of the first pair's row blocks at point `t`. -/
def blendI (c : Dev nD) (t : Fin cfg0.N) : Vec F S5000x128 .f32 :=
  k0_pay1 (iblk m c 4 t) (iblk m c 0 t) (iblk m c 1 t) (iblk m c 5 t)
/-- The gated blend of the second pair's row blocks at point `t`. -/
def blendC (c : Dev nD) (t : Fin cfg0.N) : Vec F S5000x128 .f32 :=
  k0_pay2 (iblk m c 6 t) (iblk m c 2 t) (iblk m c 3 t) (iblk m c 7 t)

/-- The proof data: every input buffer at its block; the first output's buffer at its row block's phase-0 blend in
    BOTH phases; the second output's at the phase-1 blend (consulted only in phase 1). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blendI m c (phase0 t)
    | ⟨9, _⟩ => blendC m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = blendI m c (phase0 t) := by dsimp only [dats]
theorem after9 (c : Dev nD) (t : Fin cfg0.N) : (dats m 0 c).after 9 t = blendC m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- In phase 1 the first output's buffer still holds what phase 0 left: the point before is the same row block's
    phase 0, it did not write the block back, and it was not idle for the window. -/
theorem before8_phase1 (c : Dev nD) (t : Fin cfg0.N) (h : t.val % 2 = 1) (d) :
    (dats m 0 c).before 8 t d = (dats m 0 c).after 8 t := by
  have ht : t.val ≠ 0 := by omega
  have hfl : (cfg0.win 8).flush ⟨t.val - 1, Nat.lt_of_le_of_lt (Nat.sub_le _ _) t.isLt⟩ = false :=
    Bool.eq_false_iff.mpr fun hf => by have := (flush0_8 _).mp hf; dsimp only at this; omega
  have hid : cfg0.idle 8 (grid0.coords ⟨t.val - 1, Nat.lt_of_le_of_lt (Nat.sub_le _ _) t.isLt⟩) = false :=
    Bool.eq_false_iff.mpr fun hi => by have := (idle8 _).mp hi; dsimp only at this; omega
  rw [(dats m 0 c).before_of_pos 8 t ht ((cfg0.win 8).fetch_out rfl t), hfl, if_neg Bool.false_ne_true]
  unfold Dat.left; rw [hid]
  unfold Dat.kept
  rw [Pipeline.fill_of_clip_none 8 _ (fun _ => rfl) d ((dats m 0 c).after 8 _), Window.fill_cut]
  rw [after8, after8]
  exact congrArg (blendI m c) (Fin.ext (by simp only [phase0]; omega))

/-! ## What the body obligation asks of the two outputs' buffers -/

theorem leaves8 (c : Dev nD) (t : Fin cfg0.N) :
    (dats m 0 c).leavesExact 8 t = owns (c : Thread nD τ) (ms8 t) fullShare ((dats m 0 c).after 8 t) := by
  unfold Dat.leavesExact
  by_cases h : t.val % 2 = 1
  · rw [(idle8 t).mpr h, (flush0_8 t).mpr h]
  · rw [Bool.eq_false_iff.mpr (fun hi => h ((idle8 t).mp hi))]

theorem leaves9_phase0 (c : Dev nD) (t : Fin cfg0.N) (h : t.val % 2 = 0) :
    (dats m 0 c).leavesExact 9 t = iprop(∃ d, owns (c : Thread nD τ) (ms9 t) fullShare ((dats m 0 c).before 9 t d)) :=
  (dats m 0 c).leavesExact_idle 9 t ((idle9 t).mpr h) (Bool.eq_false_iff.mpr fun hf => by have := (flush0_9 t).mp hf; omega)

theorem leaves9_phase1 (c : Dev nD) (t : Fin cfg0.N) (h : t.val % 2 = 1) :
    (dats m 0 c).leavesExact 9 t = owns (c : Thread nD τ) (ms9 t) fullShare ((dats m 0 c).after 9 t) := by
  unfold Dat.leavesExact
  rw [show cfg0.idle 9 (grid0.coords t) = false from Bool.eq_false_iff.mpr (fun hi => by have := (idle9 t).mp hi; omega)]

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]
theorem leaves3 (c : Dev nD) (t : Fin cfg0.N) :
    (dats m 0 c).leavesExact 3 t = owns (c : Thread nD τ) (ms3 t) fullShare (iblk m c 3 t) := by
  unfold Dat.leavesExact; rw [live3 t, after3]
theorem leaves4 (c : Dev nD) (t : Fin cfg0.N) :
    (dats m 0 c).leavesExact 4 t = owns (c : Thread nD τ) (ms4 t) fullShare (iblk m c 4 t) := by
  unfold Dat.leavesExact; rw [live4 t, after4]
theorem leaves5 (c : Dev nD) (t : Fin cfg0.N) :
    (dats m 0 c).leavesExact 5 t = owns (c : Thread nD τ) (ms5 t) fullShare (iblk m c 5 t) := by
  unfold Dat.leavesExact; rw [live5 t, after5]
theorem leaves6 (c : Dev nD) (t : Fin cfg0.N) :
    (dats m 0 c).leavesExact 6 t = owns (c : Thread nD τ) (ms6 t) fullShare (iblk m c 6 t) := by
  unfold Dat.leavesExact; rw [live6 t, after6]
theorem leaves7 (c : Dev nD) (t : Fin cfg0.N) :
    (dats m 0 c).leavesExact 7 t = owns (c : Thread nD τ) (ms7 t) fullShare (iblk m c 7 t) := by
  unfold Dat.leavesExact; rw [live7 t, after7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- At any point: the inputs' buffers hold their blocks; the point's phase says which branch the body takes; in phase
    0 the second output's buffer passes through as found, in phase 1 the first output's does, and it holds what phase 0
    left there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves8]
  by_cases h0 : t.val % 2 = 0
  · have h1 : ¬ t.val % 2 = 1 := by omega
    rw [leaves9_phase0 m c t h0, after8, phase0_even t h0]
    unfold blendI
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runI c (grid0.coords t) _ _ _ _ _ _ _ _ _ _ _ _ _ _ _ _ _ _ _ _ ((hcondI t).mpr h0) (fun h => h1 ((hcondC t).mp h)) (iblk m c 0 t) (iblk m c 1 t) (iblk m c 2 t) (iblk m c 3 t) (iblk m c 4 t) (iblk m c 5 t) (iblk m c 6 t) (iblk m c 7 t) ((dats m 0 c).before 9 t d9)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9
  · have h1 : t.val % 2 = 1 := by omega
    simp only [before8_phase1 m c t h1]
    rw [leaves9_phase1 m c t h1, after9]
    unfold blendC
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runC c (grid0.coords t) _ _ _ _ _ _ _ _ _ _ _ _ _ _ _ _ _ _ _ _ (fun h => h0 ((hcondI t).mp h)) ((hcondC t).mpr h1) (iblk m c 0 t) (iblk m c 1 t) (iblk m c 2 t) (iblk m c 3 t) (iblk m c 4 t) (iblk m c 5 t) (iblk m c 6 t) (iblk m c 7 t) ((dats m 0 c).after 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates with every windowed array at what the write-backs of the
    proof data leave, every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.Spec.lean ====
/-
  The gated blend, on the extended reals.

  Both programs compute, for a pair of feature rows `a₀`, `a₁`, a weight matrix `W` of 128 rows and 256 columns
  and a bias `b`, the gate `g = 1 / (1 + e^(-z))` with logit `z = [a₀ ; a₁] · W[n, :] + b[n]`, and blend the two rows
  with it. One program writes the blend as `a₁ + g·(a₀ − a₁)` and takes the logit as two sums over 128 positions; the
  other writes `g·a₀ + (1 − g)·a₁` and takes one sum over the 256 positions of the concatenated row. A sum over 256
  positions is the sum of its two halves on any commutative monoid; the two ways of writing the blend agree on finite
  values (on the extended reals they differ: at `a₀ = ⊤`, `g = 0`, `a₁ = 0`).
-/
import Idealize.ShloMosaic.PureOps.Ideal
import Idealize.ShloMosaic.PureOps.IdealRules
import proofs.«134723_g42941083026054_cont_8to1_b_680_23_alg».proof.Proof.LibFinite

noncomputable section

namespace Cert.Gated

open Idealize.ShloMosaic Cert.LibFinite

/-- The f32 word of 1.0 is the number one. -/
theorem word_one : Ideal.ofBits .f32 0x3F800000#32 = 1 := IdealRules.sign_bit.ideal_onePat .f32

/-- The gate of a finite logit is finite (it lies strictly between 0 and 1). -/
theorem logistic_fin {z : EReal} (hz : IsFin z) : IsFin (Ideal.logistic z) := by
  obtain ⟨r, rfl⟩ := hz
  exact ⟨_, Ideal.logistic_coe r⟩

/-- The quotient form of the gate is the gate. -/
theorem div_form (z : EReal) : Ideal.div 1 (1 + Ideal.exp (-z)) = Ideal.logistic z := rfl

/-- On finite values the two ways of writing the blend agree. -/
theorem blend_eq {a0 a1 g : EReal} (h0 : IsFin a0) (h1 : IsFin a1) (hg : IsFin g) :
    a1 + g * (a0 - a1) = g * a0 + (1 - g) * a1 := by
  obtain ⟨x, rfl⟩ := h0; obtain ⟨y, rfl⟩ := h1; obtain ⟨z, rfl⟩ := hg
  have e : (1 : EReal) = ((1 : ℝ) : EReal) := rfl
  rw [e, ← EReal.coe_sub, ← EReal.coe_sub, ← EReal.coe_mul, ← EReal.coe_mul, ← EReal.coe_mul, ← EReal.coe_add,
    ← EReal.coe_add]
  congr 1; ring

/-- A sum over 256 positions is the sum over the first 128 plus the sum over the last 128. -/
theorem sum_halves {M : Type} [AddCommMonoid M] (f : Fin 256 → M) :
    ∑ k : Fin 256, f k = ∑ k : Fin 128, f ⟨k.val, by omega⟩ + ∑ k : Fin 128, f ⟨128 + k.val, by omega⟩ := by
  have h := Fin.sum_univ_add (a := 128) (b := 128) (fun k : Fin (128 + 128) => f ⟨k.val, k.isLt⟩)
  exact h

end Cert.Gated

end
-- ==== Proof.GateSpec.lean ====
/-
  The result both programs compute, as one function of the argument arrays, index by index.

  For feature arrays `a₀`, `a₁` of 100000 rows by 128 columns, a weight matrix `W` of 128 rows by 256 columns and a
  bias `b` of 128 entries, the entry at row `r`, column `n` is
      a₁[r, n] + g · (a₀[r, n] − a₁[r, n]),   g = 1 / (1 + e^(−z)),
      z = Σ_{k<128} a₀[r, k]·W[n, k] + Σ_{k<128} a₁[r, k]·W[n, 128 + k] + b[n].
-/
import Idealize.ShloMosaic.Lib.ValueIdx
import proofs.«134723_g42941083026054_cont_8to1_b_680_23_alg».proof.Proof.Spec

noncomputable section

namespace Cert.Gated

open Idealize.ShloMosaic Idealize.ShloMosaic.ValueIdx Cert.LibFinite

/-- The logit at row `r`, column `n`: the row of `a₀` against the first half of row `n` of `W`, the row of `a₁`
    against its second half, and the bias. -/
def logit {R : ℕ} (a0 a1 : (⟨2, ![R, 128]⟩ : Shape).Idx → EReal) (W : (⟨2, ![128, 256]⟩ : Shape).Idx → EReal) (b : Fin 128 → EReal)
    (r : Fin R) (n : Fin 128) : EReal :=
  ∑ k : Fin 128, a0 (ix2 r k) * W (ix2 n ⟨k.val, by omega⟩)
    + ∑ k : Fin 128, a1 (ix2 r k) * W (ix2 n ⟨128 + k.val, by omega⟩) + b n

/-- The gated blend of `a₀` and `a₁`, entry by entry. -/
def blend {R : ℕ} (a0 a1 : (⟨2, ![R, 128]⟩ : Shape).Idx → EReal) (W : (⟨2, ![128, 256]⟩ : Shape).Idx → EReal) (b : Fin 128 → EReal) :
    (⟨2, ![R, 128]⟩ : Shape).Idx → EReal :=
  fun i => a1 i + Ideal.logistic (logit a0 a1 W b (i 0) (i 1)) * (a0 i - a1 i)

/-- With finite arrays the logit is finite. -/
theorem logit_fin {R : ℕ} {a0 a1 : (⟨2, ![R, 128]⟩ : Shape).Idx → EReal} {W : (⟨2, ![128, 256]⟩ : Shape).Idx → EReal} {b : Fin 128 → EReal}
    (h0 : ∀ i, IsFin (a0 i)) (h1 : ∀ i, IsFin (a1 i)) (hW : ∀ i, IsFin (W i)) (hb : ∀ n, IsFin (b n)) (r : Fin R) (n : Fin 128) :
    IsFin (logit a0 a1 W b r n) :=
  ((IsFin.sum _ _ fun k _ => (h0 _).mul (hW _)).add (IsFin.sum _ _ fun k _ => (h1 _).mul (hW _))).add (hb n)

/-- With finite arrays the blend, written the other way round, is the same number. -/
theorem blend_other {R : ℕ} {a0 a1 : (⟨2, ![R, 128]⟩ : Shape).Idx → EReal} {W : (⟨2, ![128, 256]⟩ : Shape).Idx → EReal} {b : Fin 128 → EReal}
    (h0 : ∀ i, IsFin (a0 i)) (h1 : ∀ i, IsFin (a1 i)) (hW : ∀ i, IsFin (W i)) (hb : ∀ n, IsFin (b n)) (i : (⟨2, ![R, 128]⟩ : Shape).Idx) :
    Ideal.logistic (logit a0 a1 W b (i 0) (i 1)) * a0 i + (1 - Ideal.logistic (logit a0 a1 W b (i 0) (i 1))) * a1 i = blend a0 a1 W b i :=
  (blend_eq (h0 i) (h1 i) (logistic_fin (logit_fin h0 h1 hW hb _ _))).symm

end Cert.Gated

end
-- ==== Proof.KernelPayload.lean ====
/-
  The body's arithmetic, read at one entry of the block, over the extended reals.

  The body casts its operands to a narrower float format (at exact values: nothing changes), multiplies the row block of
  `a₀` by the transposed first half of the weights and the row block of `a₁` by the transposed second half, adds the
  two products and the bias row, applies the gate, and stores `a₁ + g·(a₀ − a₁)`. At the entry `(p, q)` of the block this
  is the gated blend of the blocks' rows `p` at column `q`.
-/
import proofs.«134723_g42941083026054_cont_8to1_b_680_23_alg».proof.Proof.Gen.KernelIdeal.Skeleton
import proofs.«134723_g42941083026054_cont_8to1_b_680_23_alg».proof.Proof.LibMatmulT
import proofs.«134723_g42941083026054_cont_8to1_b_680_23_alg».proof.Proof.GateSpec
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx

/-- The gate, lane by lane. -/
theorem logistic_apply {s : Shape} {φ : FTy} (a : FVec Ideal s φ) (i : s.Idx) : logistic a i = Ideal.logistic (a i) := rfl

/-- A row block times a transposed 128 by 128 matrix, into zeros: entry `(p, q)` is row `p` against row `q`. -/
theorem gate_matmul (A : FVec Ideal S5000x128 .bf16) (B : FVec Ideal S128x128 .bf16) (p : Fin 5000) (q : Fin 128) :
    matmul dot_S5000x128_S128x128_S5000x128_1_1_0_0_n_n none A B (constant S5000x128 .f32 0x00000000#32) (ix2 p q)
      = ∑ c : Fin 128, A (ix2 p c) * B (ix2 q c) :=
  MatmulT.matmul_zero_apply (M := 5000) (K := 128) (N := 128) dot_S5000x128_S128x128_S5000x128_1_1_0_0_n_n.wf none A B p q

/-- The first 128 columns of the weights. -/
theorem slice_lo (W : FVec Ideal S128x256 .bf16) (q : Fin 128) (k : Fin 128) :
    extractStridedSlice S128x128 ![0, 0] W slices_S128x256_o0_0_S128x128 (ix2 q k) = W (ix2 q ⟨k.val, by omega⟩) :=
  extractStridedSlice_apply _ W _ (ix2 q k) (ix2 q ⟨k.val, by omega⟩) (fun a => match a with
    | ⟨0, _⟩ => by show q.val = 0 + q.val; omega
    | ⟨1, _⟩ => by show k.val = 0 + k.val; omega)

/-- The last 128 columns of the weights. -/
theorem slice_hi (W : FVec Ideal S128x256 .bf16) (q : Fin 128) (k : Fin 128) :
    extractStridedSlice S128x128 ![0, 128] W slices_S128x256_o0_128_S128x128 (ix2 q k) = W (ix2 q ⟨128 + k.val, by omega⟩) :=
  extractStridedSlice_apply _ W _ (ix2 q k) (ix2 q ⟨128 + k.val, by omega⟩) (fun a => match a with
    | ⟨0, _⟩ => by show q.val = 0 + q.val; omega
    | ⟨1, _⟩ => by show 128 + k.val = 128 + k.val; rfl)

/-- The bias row on every row of the block. -/
theorem bias_apply (x5 : FVec Ideal S1x128 .f32) (p : Fin 5000) (q : Fin 128) :
    broadcastTo S5000x128 (shapeCast S1x128 x5 shapeCasts_S1x128_S1x128) broadcasts_S1x128_S5000x128 (ix2 p q) = x5 (ix2 (0 : Fin 1) q) := by
  rw [shapeCast_self]
  exact broadcastTo_apply x5 _ (ix2 p q) (ix2 (0 : Fin 1) q) (fun a => match a with
    | ⟨0, _⟩ => by show (0 : ℕ) = if (1 : ℕ) = 1 then 0 else p.val; rw [if_pos rfl]
    | ⟨1, _⟩ => by show q.val = if (128 : ℕ) = 1 then 0 else q.val; rw [if_neg (by decide)])

/-- The first branch's stored value at `(p, q)`: the gated blend of the blocks. -/
theorem pay1_apply (x4 : Vec Ideal S128x256 .f32) (x0 x1 : Vec Ideal S5000x128 .f32) (x5 : Vec Ideal S1x128 .f32) (p : Fin 5000) (q : Fin 128) :
    k0_pay1 (F := Ideal) x4 x0 x1 x5 (ix2 p q) = Cert.Gated.blend (R := 5000) x0 x1 x4 (fun n => x5 (ix2 (0 : Fin 1) n)) (ix2 p q) := by
  unfold k0_pay1
  simp only [addf_apply, mulf_apply, subf_apply, logistic_apply]
  rw [gate_matmul, gate_matmul, bias_apply]
  simp only [truncf_apply, slice_lo, slice_hi]
  rfl

/-- The second branch's stored value at `(p, q)`: the same function of its own blocks. -/
theorem pay2_apply (x4 : Vec Ideal S128x256 .f32) (x0 x1 : Vec Ideal S5000x128 .f32) (x5 : Vec Ideal S1x128 .f32) (p : Fin 5000) (q : Fin 128) :
    k0_pay2 (F := Ideal) x4 x0 x1 x5 (ix2 p q) = Cert.Gated.blend (R := 5000) x0 x1 x4 (fun n => x5 (ix2 (0 : Fin 1) n)) (ix2 p q) := by
  unfold k0_pay2
  simp only [addf_apply, mulf_apply, subf_apply, logistic_apply]
  rw [gate_matmul, gate_matmul, bias_apply]
  simp only [truncf_apply, slice_lo, slice_hi]
  rfl

end Cert.KernelIdeal.Payload

end
-- ==== Proof.KernelValue.lean ====
/-
  What the kernel's two result arrays hold after the run, as functions of the argument arrays.

  The grid is 20 row blocks by 2 phases. Window `w` of a row-blocked array sits, at point `t`, on rows
  `5000·(t/2) … 5000·(t/2) + 4999`; the weights and the bias rows are staged whole. Both outputs are written back after
  phase 1 of each row block: the first holds the blend phase 0 computed from that row block of the first pair, the second
  the blend phase 1 computed from that row block of the second pair. The 20 blocks tile the 100000 rows, and a block's
  entry `(p, q)` depends only on row `5000·(t/2) + p` of the arrays, so each result array is the gated blend of whole arrays.
-/
import proofs.«134723_g42941083026054_cont_8to1_b_680_23_alg».proof.Proof.KernelIdealFrame
import proofs.«134723_g42941083026054_cont_8to1_b_680_23_alg».proof.Proof.KernelPayload
import proofs.«134723_g42941083026054_cont_8to1_b_680_23_alg».proof.Proof.GateSpec
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.KernelIdeal.Out

open Cert.KernelIdeal Cert.KernelIdeal.Gen Cert.KernelIdeal.Body
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg)

/-! ## The index maps in closed form, decided over the grid -/

theorem idx0 : ∀ t : Fin cfg0.N, win0_0.index t (0 : Fin 2) = t.val / 2 ∧ win0_0.index t (1 : Fin 2) = 0 :=
  (by decide +kernel : ∀ t : Fin grid0.N, win0_0.index t (0 : Fin 2) = t.val / 2 ∧ win0_0.index t (1 : Fin 2) = 0)
theorem idx1 : ∀ t : Fin cfg0.N, win0_1.index t (0 : Fin 2) = t.val / 2 ∧ win0_1.index t (1 : Fin 2) = 0 :=
  (by decide +kernel : ∀ t : Fin grid0.N, win0_1.index t (0 : Fin 2) = t.val / 2 ∧ win0_1.index t (1 : Fin 2) = 0)
theorem idx2 : ∀ t : Fin cfg0.N, win0_2.index t (0 : Fin 2) = t.val / 2 ∧ win0_2.index t (1 : Fin 2) = 0 :=
  (by decide +kernel : ∀ t : Fin grid0.N, win0_2.index t (0 : Fin 2) = t.val / 2 ∧ win0_2.index t (1 : Fin 2) = 0)
theorem idx3 : ∀ t : Fin cfg0.N, win0_3.index t (0 : Fin 2) = t.val / 2 ∧ win0_3.index t (1 : Fin 2) = 0 :=
  (by decide +kernel : ∀ t : Fin grid0.N, win0_3.index t (0 : Fin 2) = t.val / 2 ∧ win0_3.index t (1 : Fin 2) = 0)
theorem idx8 : ∀ t : Fin cfg0.N, win0_8.index t (0 : Fin 2) = t.val / 2 ∧ win0_8.index t (1 : Fin 2) = 0 :=
  (by decide +kernel : ∀ t : Fin grid0.N, win0_8.index t (0 : Fin 2) = t.val / 2 ∧ win0_8.index t (1 : Fin 2) = 0)
theorem idx9 : ∀ t : Fin cfg0.N, win0_9.index t (0 : Fin 2) = t.val / 2 ∧ win0_9.index t (1 : Fin 2) = 0 :=
  (by decide +kernel : ∀ t : Fin grid0.N, win0_9.index t (0 : Fin 2) = t.val / 2 ∧ win0_9.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-! ## The input blocks, read off the arrays -/

/-- A row-blocked input's block at point `t`, entry `y`: the array at row `5000·(t/2) + y₀`, column `y₁`. -/
theorem iblk0_apply (c : Dev nD) (t : Fin cfg0.N) (y : S5000x128.Idx) (i : S100000x128.Idx)
    (h0 : (i 0).val = t.val / 2 * 5000 + (y 0).val) (h1 : (i 1).val = (y 1).val) :
    iblk m c 0 t y = V m c main_arg0 i := by
  show V m c main_arg0 (((cfg0.win 0).blk t).view.emb y) = V m c main_arg0 i
  refine congrArg _ (funext fun a => Fin.ext ?_)
  obtain ⟨e0, e1⟩ := idx0 t
  match a with
  | ⟨0, _⟩ => show win0_0.index t (0 : Fin 2) * 5000 + 1 * (y 0).val = (i 0).val; omega
  | ⟨1, _⟩ => show win0_0.index t (1 : Fin 2) * 128 + 1 * (y 1).val = (i 1).val; omega
/-- A row-blocked input's block at point `t`, entry `y`: the array at row `5000·(t/2) + y₀`, column `y₁`. -/
theorem iblk1_apply (c : Dev nD) (t : Fin cfg0.N) (y : S5000x128.Idx) (i : S100000x128.Idx)
    (h0 : (i 0).val = t.val / 2 * 5000 + (y 0).val) (h1 : (i 1).val = (y 1).val) :
    iblk m c 1 t y = V m c main_arg2 i := by
  show V m c main_arg2 (((cfg0.win 1).blk t).view.emb y) = V m c main_arg2 i
  refine congrArg _ (funext fun a => Fin.ext ?_)
  obtain ⟨e0, e1⟩ := idx1 t
  match a with
  | ⟨0, _⟩ => show win0_1.index t (0 : Fin 2) * 5000 + 1 * (y 0).val = (i 0).val; omega
  | ⟨1, _⟩ => show win0_1.index t (1 : Fin 2) * 128 + 1 * (y 1).val = (i 1).val; omega
/-- A row-blocked input's block at point `t`, entry `y`: the array at row `5000·(t/2) + y₀`, column `y₁`. -/
theorem iblk2_apply (c : Dev nD) (t : Fin cfg0.N) (y : S5000x128.Idx) (i : S100000x128.Idx)
    (h0 : (i 0).val = t.val / 2 * 5000 + (y 0).val) (h1 : (i 1).val = (y 1).val) :
    iblk m c 2 t y = V m c main_arg1 i := by
  show V m c main_arg1 (((cfg0.win 2).blk t).view.emb y) = V m c main_arg1 i
  refine congrArg _ (funext fun a => Fin.ext ?_)
  obtain ⟨e0, e1⟩ := idx2 t
  match a with
  | ⟨0, _⟩ => show win0_2.index t (0 : Fin 2) * 5000 + 1 * (y 0).val = (i 0).val; omega
  | ⟨1, _⟩ => show win0_2.index t (1 : Fin 2) * 128 + 1 * (y 1).val = (i 1).val; omega
/-- A row-blocked input's block at point `t`, entry `y`: the array at row `5000·(t/2) + y₀`, column `y₁`. -/
theorem iblk3_apply (c : Dev nD) (t : Fin cfg0.N) (y : S5000x128.Idx) (i : S100000x128.Idx)
    (h0 : (i 0).val = t.val / 2 * 5000 + (y 0).val) (h1 : (i 1).val = (y 1).val) :
    iblk m c 3 t y = V m c main_arg3 i := by
  show V m c main_arg3 (((cfg0.win 3).blk t).view.emb y) = V m c main_arg3 i
  refine congrArg _ (funext fun a => Fin.ext ?_)
  obtain ⟨e0, e1⟩ := idx3 t
  match a with
  | ⟨0, _⟩ => show win0_3.index t (0 : Fin 2) * 5000 + 1 * (y 0).val = (i 0).val; omega
  | ⟨1, _⟩ => show win0_3.index t (1 : Fin 2) * 128 + 1 * (y 1).val = (i 1).val; omega

/-- An input staged whole: its block at every point is the array. -/
theorem iblk4_eq (c : Dev nD) (t : Fin cfg0.N) : iblk m c 4 t = V m c main_arg4 := by
  funext y
  show V m c main_arg4 (((cfg0.win 4).blk t).view.emb y) = V m c main_arg4 y
  refine congrArg _ (funext fun a => Fin.ext ?_)
  obtain ⟨e0, e1⟩ := idx4 t
  match a with
  | ⟨0, _⟩ => show win0_4.index t (0 : Fin 2) * 128 + 1 * (y 0).val = (y 0).val; omega
  | ⟨1, _⟩ => show win0_4.index t (1 : Fin 2) * 256 + 1 * (y 1).val = (y 1).val; omega
/-- An input staged whole: its block at every point is the array. -/
theorem iblk5_eq (c : Dev nD) (t : Fin cfg0.N) : iblk m c 5 t = V m c main_call0_v0 := by
  funext y
  show V m c main_call0_v0 (((cfg0.win 5).blk t).view.emb y) = V m c main_call0_v0 y
  refine congrArg _ (funext fun a => Fin.ext ?_)
  obtain ⟨e0, e1⟩ := idx5 t
  match a with
  | ⟨0, _⟩ => show win0_5.index t (0 : Fin 2) * 1 + 1 * (y 0).val = (y 0).val; omega
  | ⟨1, _⟩ => show win0_5.index t (1 : Fin 2) * 128 + 1 * (y 1).val = (y 1).val; omega
/-- An input staged whole: its block at every point is the array. -/
theorem iblk6_eq (c : Dev nD) (t : Fin cfg0.N) : iblk m c 6 t = V m c main_arg6 := by
  funext y
  show V m c main_arg6 (((cfg0.win 6).blk t).view.emb y) = V m c main_arg6 y
  refine congrArg _ (funext fun a => Fin.ext ?_)
  obtain ⟨e0, e1⟩ := idx6 t
  match a with
  | ⟨0, _⟩ => show win0_6.index t (0 : Fin 2) * 128 + 1 * (y 0).val = (y 0).val; omega
  | ⟨1, _⟩ => show win0_6.index t (1 : Fin 2) * 256 + 1 * (y 1).val = (y 1).val; omega
/-- An input staged whole: its block at every point is the array. -/
theorem iblk7_eq (c : Dev nD) (t : Fin cfg0.N) : iblk m c 7 t = V m c main_call0_v1 := by
  funext y
  show V m c main_call0_v1 (((cfg0.win 7).blk t).view.emb y) = V m c main_call0_v1 y
  refine congrArg _ (funext fun a => Fin.ext ?_)
  obtain ⟨e0, e1⟩ := idx7 t
  match a with
  | ⟨0, _⟩ => show win0_7.index t (0 : Fin 2) * 1 + 1 * (y 0).val = (y 0).val; omega
  | ⟨1, _⟩ => show win0_7.index t (1 : Fin 2) * 128 + 1 * (y 1).val = (y 1).val; omega

/-! ## The bias rows: the host's reshape of the bias vectors -/

theorem V_bias1 (c : Dev nD) (n : Fin 128) :
    V m c main_call0_v0 (ix2 (0 : Fin 1) n) = m ((c : Thread nD τ).loc main_arg5) (ix1 n) := by
  have e : (V m c main_call0_v0 : S1x128.Idx → EReal) = shapeCast S1x128 (m ((c : Thread nD τ).loc main_arg5)) shapeCasts_S128_S1x128 := by
    dsimp only [Gen.V, Gen.hostOps0]; after_results; rfl
  rw [e]
  exact shapeCast_a_1a_apply _ _ (0 : Fin 1) n

theorem V_bias3 (c : Dev nD) (n : Fin 128) :
    V m c main_call0_v1 (ix2 (0 : Fin 1) n) = m ((c : Thread nD τ).loc main_arg7) (ix1 n) := by
  have e : (V m c main_call0_v1 : S1x128.Idx → EReal) = shapeCast S1x128 (m ((c : Thread nD τ).loc main_arg7)) shapeCasts_S128_S1x128 := by
    dsimp only [Gen.V, Gen.hostOps0]; after_results; rfl
  rw [e]
  exact shapeCast_a_1a_apply _ _ (0 : Fin 1) n

/-! ## The two results as whole-array functions -/

/-- The first result: the gated blend of arguments 0 and 2 under weights 4 and bias 5. -/
def outI (c : Dev nD) : S100000x128.Idx → EReal :=
  Cert.Gated.blend (R := 100000) (m ((c : Thread nD τ).loc main_arg0)) (m ((c : Thread nD τ).loc main_arg2))
    (m ((c : Thread nD τ).loc main_arg4)) (fun n => m ((c : Thread nD τ).loc main_arg5) (ix1 n))

/-- The second result: the gated blend of arguments 1 and 3 under weights 6 and bias 7. -/
def outC (c : Dev nD) : S100000x128.Idx → EReal :=
  Cert.Gated.blend (R := 100000) (m ((c : Thread nD τ).loc main_arg1)) (m ((c : Thread nD τ).loc main_arg3))
    (m ((c : Thread nD τ).loc main_arg6)) (fun n => m ((c : Thread nD τ).loc main_arg7) (ix1 n))

/-! ## The blend depends only on the entry's row of the feature arrays -/

theorem blend_ix2 {R : ℕ} (a0 a1 : (⟨2, ![R, 128]⟩ : Shape).Idx → EReal) (W : (⟨2, ![128, 256]⟩ : Shape).Idx → EReal) (b : Fin 128 → EReal)
    (r : Fin R) (q : Fin 128) :
    Cert.Gated.blend a0 a1 W b (ix2 r q)
      = a1 (ix2 r q) + Ideal.logistic (Cert.Gated.logit a0 a1 W b r q) * (a0 (ix2 r q) - a1 (ix2 r q)) := rfl

theorem blend_congr {R R' : ℕ} {a0 a1 : (⟨2, ![R, 128]⟩ : Shape).Idx → EReal} {A0 A1 : (⟨2, ![R', 128]⟩ : Shape).Idx → EReal}
    {W W' : (⟨2, ![128, 256]⟩ : Shape).Idx → EReal} {b b' : Fin 128 → EReal} (r : Fin R) (r' : Fin R') (q : Fin 128)
    (h0 : ∀ k, a0 (ix2 r k) = A0 (ix2 r' k)) (h1 : ∀ k, a1 (ix2 r k) = A1 (ix2 r' k)) (hW : W = W') (hb : ∀ n, b n = b' n) :
    Cert.Gated.blend a0 a1 W b (ix2 r q) = Cert.Gated.blend A0 A1 W' b' (ix2 r' q) := by
  subst hW
  rw [blend_ix2, blend_ix2, h0 q, h1 q]
  unfold Cert.Gated.logit
  simp only [h0, h1, hb]

theorem blend_congr' {R R' : ℕ} {a0 a1 : (⟨2, ![R, 128]⟩ : Shape).Idx → EReal} {A0 A1 : (⟨2, ![R', 128]⟩ : Shape).Idx → EReal}
    {W W' : (⟨2, ![128, 256]⟩ : Shape).Idx → EReal} {b b' : Fin 128 → EReal} (r : Fin R) (q : Fin 128) (i' : (⟨2, ![R', 128]⟩ : Shape).Idx)
    (hq : i' 1 = q)
    (h0 : ∀ k, a0 (ix2 r k) = A0 (ix2 (i' 0) k)) (h1 : ∀ k, a1 (ix2 r k) = A1 (ix2 (i' 0) k)) (hW : W = W') (hb : ∀ n, b n = b' n) :
    Cert.Gated.blend a0 a1 W b (ix2 r q) = Cert.Gated.blend A0 A1 W' b' i' := by
  have e : i' = ix2 (i' 0) q := by rw [← hq]; exact eq_ix2 i'
  rw [e]
  exact blend_congr r (i' 0) q h0 h1 hW hb

/-- What the write-back of output window 8 at point `t` writes: its block of the whole-array blend. -/
theorem flushed8_eq (c : Dev nD) (t : Fin cfg0.N) :
    (dats m 0 c).flushed 8 t = ((cfg0.win 8).blk t).view.read (Elt Ideal) (outI m c) := by
  show (cfg0.win 8).cut (grid0.coords t) ((dats m 0 c).after 8 t) = _
  rw [after8]
  funext j
  obtain ⟨p, q, rfl⟩ : ∃ (p : Fin 5000) (q : Fin 128), j = ix2 p q := ⟨j 0, j 1, eq_ix2 j⟩
  have hN : t.val < 40 := lt_of_lt_of_eq t.isLt (show cfg0.N = 40 from N_0)
  obtain ⟨e0, e1⟩ := idx8 t
  have hi0 : ((((cfg0.win 8).blk t).view.emb (ix2 p q) : S100000x128.Idx) 0).val = t.val / 2 * 5000 + p.val := by
    show win0_8.index t (0 : Fin 2) * 5000 + 1 * p.val = _; omega
  have hi1 : (((cfg0.win 8).blk t).view.emb (ix2 p q) : S100000x128.Idx) 1 = q :=
    Fin.ext (by show win0_8.index t (1 : Fin 2) * 128 + 1 * q.val = q.val; omega)
  show blendI m c (phase0 t) (ix2 p q) = outI m c (((cfg0.win 8).blk t).view.emb (ix2 p q))
  unfold blendI outI
  refine (Payload.pay1_apply (iblk m c 4 _) (iblk m c 0 _) (iblk m c 1 _) (iblk m c 5 _) p q).trans ?_
  refine blend_congr' p q _ hi1 (fun k => ?_) (fun k => ?_) ?_ (fun n => ?_)
  · exact (iblk0_apply m c _ (ix2 p k) (ix2 ((((cfg0.win 8).blk t).view.emb (ix2 p q) : S100000x128.Idx) 0) k) (hi0.trans (by show t.val / 2 * 5000 + p.val = (t.val - t.val % 2) / 2 * 5000 + p.val; omega)) rfl).trans (congrFun (V_main_arg0 m c) _)
  · exact (iblk1_apply m c _ (ix2 p k) (ix2 ((((cfg0.win 8).blk t).view.emb (ix2 p q) : S100000x128.Idx) 0) k) (hi0.trans (by show t.val / 2 * 5000 + p.val = (t.val - t.val % 2) / 2 * 5000 + p.val; omega)) rfl).trans (congrFun (V_main_arg2 m c) _)
  · exact (iblk4_eq m c _).trans (V_main_arg4 m c)
  · exact (congrFun (iblk5_eq m c _) _).trans (V_bias1 m c n)

/-- An index of the result array lies in point `t`'s block iff each coordinate lies in the block's range. -/
theorem mem_blk8 (t : Fin cfg0.N) (i : S100000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v0_0).slice (win0_8.rect t)).set ↔ _
  rw [View.set_slice_whole, Rect.mem_set_unit]
  exact Iff.rfl

/-- Every row lies in the block written back after phase 1 of its row block. -/
theorem cover8 (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  have hlt : 2 * ((i 0).val / 5000) + 1 < cfg0.N := lt_of_lt_of_eq (by omega : 2 * ((i 0).val / 5000) + 1 < 40) N_0.symm
  obtain ⟨e0, e1⟩ := idx8 ⟨2 * ((i 0).val / 5000) + 1, hlt⟩
  have e0' : win0_8.index ⟨2 * ((i 0).val / 5000) + 1, hlt⟩ (0 : Fin 2) = (i 0).val / 5000 := by
    rw [e0]; show (2 * ((i 0).val / 5000) + 1) / 2 = _; omega
  refine ⟨⟨2 * ((i 0).val / 5000) + 1, hlt⟩, (flush0_8 _).mpr (by show (2 * ((i 0).val / 5000) + 1) % 2 = 1; omega), ?_⟩
  rw [mem_blk8]
  intro a
  match a with
  | ⟨0, _⟩ =>
    show win0_8.index ⟨2 * ((i 0).val / 5000) + 1, hlt⟩ (0 : Fin 2) * 5000 ≤ (i 0).val ∧ (i 0).val < win0_8.index ⟨2 * ((i 0).val / 5000) + 1, hlt⟩ (0 : Fin 2) * 5000 + 5000
    rw [e0']; omega
  | ⟨1, _⟩ =>
    show win0_8.index ⟨2 * ((i 0).val / 5000) + 1, hlt⟩ (1 : Fin 2) * 128 ≤ (i 1).val ∧ (i 1).val < win0_8.index ⟨2 * ((i 0).val / 5000) + 1, hlt⟩ (1 : Fin 2) * 128 + 128
    rw [e1]; omega

/-- The result array after the run. -/
theorem final8 (c : Dev nD) : (dats m 0 c).arrAt 8 cfg0.N = outI m c :=
  (dats m 0 c).arrAt_eq_of_cover 8 (outI m c) (fun t _ => flushed8_eq m c t) cover8

/-- What the write-back of output window 9 at point `t` writes: its block of the whole-array blend. -/
theorem flushed9_eq (c : Dev nD) (t : Fin cfg0.N) :
    (dats m 0 c).flushed 9 t = ((cfg0.win 9).blk t).view.read (Elt Ideal) (outC m c) := by
  show (cfg0.win 9).cut (grid0.coords t) ((dats m 0 c).after 9 t) = _
  rw [after9]
  funext j
  obtain ⟨p, q, rfl⟩ : ∃ (p : Fin 5000) (q : Fin 128), j = ix2 p q := ⟨j 0, j 1, eq_ix2 j⟩
  have hN : t.val < 40 := lt_of_lt_of_eq t.isLt (show cfg0.N = 40 from N_0)
  obtain ⟨e0, e1⟩ := idx9 t
  have hi0 : ((((cfg0.win 9).blk t).view.emb (ix2 p q) : S100000x128.Idx) 0).val = t.val / 2 * 5000 + p.val := by
    show win0_9.index t (0 : Fin 2) * 5000 + 1 * p.val = _; omega
  have hi1 : (((cfg0.win 9).blk t).view.emb (ix2 p q) : S100000x128.Idx) 1 = q :=
    Fin.ext (by show win0_9.index t (1 : Fin 2) * 128 + 1 * q.val = q.val; omega)
  show blendC m c t (ix2 p q) = outC m c (((cfg0.win 9).blk t).view.emb (ix2 p q))
  unfold blendC outC
  refine (Payload.pay2_apply (iblk m c 6 _) (iblk m c 2 _) (iblk m c 3 _) (iblk m c 7 _) p q).trans ?_
  refine blend_congr' p q _ hi1 (fun k => ?_) (fun k => ?_) ?_ (fun n => ?_)
  · exact (iblk2_apply m c _ (ix2 p k) (ix2 ((((cfg0.win 9).blk t).view.emb (ix2 p q) : S100000x128.Idx) 0) k) hi0 rfl).trans (congrFun (V_main_arg1 m c) _)
  · exact (iblk3_apply m c _ (ix2 p k) (ix2 ((((cfg0.win 9).blk t).view.emb (ix2 p q) : S100000x128.Idx) 0) k) hi0 rfl).trans (congrFun (V_main_arg3 m c) _)
  · exact (iblk6_eq m c _).trans (V_main_arg6 m c)
  · exact (congrFun (iblk7_eq m c _) _).trans (V_bias3 m c n)

/-- An index of the result array lies in point `t`'s block iff each coordinate lies in the block's range. -/
theorem mem_blk9 (t : Fin cfg0.N) (i : S100000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v0_1).slice (win0_9.rect t)).set ↔ _
  rw [View.set_slice_whole, Rect.mem_set_unit]
  exact Iff.rfl

/-- Every row lies in the block written back after phase 1 of its row block. -/
theorem cover9 (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  have hlt : 2 * ((i 0).val / 5000) + 1 < cfg0.N := lt_of_lt_of_eq (by omega : 2 * ((i 0).val / 5000) + 1 < 40) N_0.symm
  obtain ⟨e0, e1⟩ := idx9 ⟨2 * ((i 0).val / 5000) + 1, hlt⟩
  have e0' : win0_9.index ⟨2 * ((i 0).val / 5000) + 1, hlt⟩ (0 : Fin 2) = (i 0).val / 5000 := by
    rw [e0]; show (2 * ((i 0).val / 5000) + 1) / 2 = _; omega
  refine ⟨⟨2 * ((i 0).val / 5000) + 1, hlt⟩, (flush0_9 _).mpr (by show (2 * ((i 0).val / 5000) + 1) % 2 = 1; omega), ?_⟩
  rw [mem_blk9]
  intro a
  match a with
  | ⟨0, _⟩ =>
    show win0_9.index ⟨2 * ((i 0).val / 5000) + 1, hlt⟩ (0 : Fin 2) * 5000 ≤ (i 0).val ∧ (i 0).val < win0_9.index ⟨2 * ((i 0).val / 5000) + 1, hlt⟩ (0 : Fin 2) * 5000 + 5000
    rw [e0']; omega
  | ⟨1, _⟩ =>
    show win0_9.index ⟨2 * ((i 0).val / 5000) + 1, hlt⟩ (1 : Fin 2) * 128 ≤ (i 1).val ∧ (i 1).val < win0_9.index ⟨2 * ((i 0).val / 5000) + 1, hlt⟩ (1 : Fin 2) * 128 + 128
    rw [e1]; omega

/-- The result array after the run. -/
theorem final9 (c : Dev nD) : (dats m 0 c).arrAt 9 cfg0.N = outC m c :=
  (dats m 0 c).arrAt_eq_of_cover 9 (outC m c) (fun t _ => flushed9_eq m c t) cover9

/-! ## The run, read -/

/-- Every weakly fair execution of the kernel program terminates with the two result arrays at the two gated blends
    of the argument arrays, the arguments unchanged. -/
theorem run : θ_run defs (onTc (τ := τ) (main (F := Ideal))) ⟨m, fun _ => 0, ρ⟩ fun r => ∀ c : Dev nD,
      r.2.mem ((c.tc : Thread nD τ).loc main_v0_0) = outI m c
      ∧ r.2.mem ((c.tc : Thread nD τ).loc main_v0_1) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 8).trans (final8 m c), ((h c).1 9).trans (final9 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c)⟩)
    (run_main m ρ)

end Cert.KernelIdeal.Out

end
-- ==== Proof.RefRun.lean ====
/-
  The reference program's run, read back.

  @main is forty host operations in a straight line: two copies of the same twenty, the first over the arguments
  (0, 2, 4, 5), the second over (1, 3, 6, 7). Each copy joins two feature arrays side by side, multiplies by the
  transposed weights, adds the bias, takes the gate `1 / (1 + e^(−z))` and blends: `g·a + (1 − g)·b`. Every weakly
  fair execution terminates with each result at that composed term of the arguments, and the arguments unchanged.
-/
import proofs.«134723_g42941083026054_cont_8to1_b_680_23_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two feature arrays side by side: 128 columns of the first, then 128 columns of the second. -/
def joinCols (a b : (⟨S100000x128, .f32⟩ : BufTy).Contents (Elt F)) : (⟨S100000x256, .f32⟩ : BufTy).Contents (Elt F) :=
  concatenate S100000x256 1 [⟨S100000x128, a⟩, ⟨S100000x128, b⟩] concatenates_S100000x128_S100000x128_S100000x256_d1

/-- The array of ones. -/
def ones : (⟨S100000x128, .f32⟩ : BufTy).Contents (Elt F) :=
  broadcastInDim S100000x128 ![] bcast_S_S100000x128 (constant S_ .f32 0x3F800000#32)

/-- The logits: the joined rows against the transposed weights, plus the bias on every row. -/
def logits (a b : (⟨S100000x128, .f32⟩ : BufTy).Contents (Elt F)) (W : (⟨S128x256, .f32⟩ : BufTy).Contents (Elt F))
    (bias : (⟨S128, .f32⟩ : BufTy).Contents (Elt F)) : (⟨S100000x128, .f32⟩ : BufTy).Contents (Elt F) :=
  addf (Host.dotGeneral dot_S100000x256_S256x128_S100000x128_1_0_0_1_n_n none (joinCols a b) (transpose S256x128 [1, 0] W transposes_S128x256_S256x128_1_0))
    (broadcastInDim S100000x128 ![0, 1] bcast_S1x128_S100000x128_0_1 (broadcastInDim S1x128 ![1] bcast_S128_S1x128_1 bias))

/-- The gate of the logits. -/
def gate (a b : (⟨S100000x128, .f32⟩ : BufTy).Contents (Elt F)) (W : (⟨S128x256, .f32⟩ : BufTy).Contents (Elt F))
    (bias : (⟨S128, .f32⟩ : BufTy).Contents (Elt F)) : (⟨S100000x128, .f32⟩ : BufTy).Contents (Elt F) :=
  Host.divf ones (addf ones (Host.exp (Host.negf (logits a b W bias))))

/-- One copy's result: the blend `g·a + (1 − g)·b`. -/
def half (a b : (⟨S100000x128, .f32⟩ : BufTy).Contents (Elt F)) (W : (⟨S128x256, .f32⟩ : BufTy).Contents (Elt F))
    (bias : (⟨S128, .f32⟩ : BufTy).Contents (Elt F)) : (⟨S100000x128, .f32⟩ : BufTy).Contents (Elt F) :=
  addf (mulf (gate a b W bias) a) (mulf (subf ones (gate a b W bias)) b)

/-- @main's 40 operations, in order. -/
abbrev ops : List (HloOp τ sig (Elt F)) :=
  [ binary main_arg0 main_arg2 main_v0 (joinCols : (⟨S100000x128, .f32⟩ : BufTy).Contents (Elt F) → (⟨S100000x128, .f32⟩ : BufTy).Contents (Elt F) → (⟨S100000x256, .f32⟩ : BufTy).Contents (Elt F)),
    unary main_arg4 main_v1 ((transpose S256x128 [1, 0] · transposes_S128x256_S256x128_1_0) : (⟨S128x256, .f32⟩ : BufTy).Contents (Elt F) → (⟨S256x128, .f32⟩ : BufTy).Contents (Elt F)),
    binary main_v0 main_v1 main_v2 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg5 main_v3 (broadcastInDim S1x128 ![1] bcast_S128_S1x128_1 : (⟨S128, .f32⟩ : BufTy).Contents (Elt F) → (⟨S1x128, .f32⟩ : BufTy).Contents (Elt F)),
    unary main_v3 main_v4 (broadcastInDim S100000x128 ![0, 1] bcast_S1x128_S100000x128_0_1 : (⟨S1x128, .f32⟩ : BufTy).Contents (Elt F) → (⟨S100000x128, .f32⟩ : BufTy).Contents (Elt F)),
    binary main_v2 main_v4 main_v5 (addf : (⟨S100000x128, .f32⟩ : BufTy).Contents (Elt F) → (⟨S100000x128, .f32⟩ : BufTy).Contents (Elt F) → (⟨S100000x128, .f32⟩ : BufTy).Contents (Elt F)),
    unary main_v5 main_v6 (Host.negf : (⟨S100000x128, .f32⟩ : BufTy).Contents (Elt F) → (⟨S100000x128, .f32⟩ : BufTy).Contents (Elt F)),
    unary main_v6 main_v7 (Host.exp : (⟨S100000x128, .f32⟩ : BufTy).Contents (Elt F) → (⟨S100000x128, .f32⟩ : BufTy).Contents (Elt F)),
    nullary main_cst (constant S_ .f32 0x3F800000#32),
    unary main_cst main_v8 (broadcastInDim S100000x128 ![] bcast_S_S100000x128 : (⟨S_, .f32⟩ : BufTy).Contents (Elt F) → (⟨S100000x128, .f32⟩ : BufTy).Contents (Elt F)),
    binary main_v8 main_v7 main_v9 (addf : (⟨S100000x128, .f32⟩ : BufTy).Contents (Elt F) → (⟨S100000x128, .f32⟩ : BufTy).Contents (Elt F) → (⟨S100000x128, .f32⟩ : BufTy).Contents (Elt F)),
    nullary main_cst_0 (constant S_ .f32 0x3F800000#32),
    unary main_cst_0 main_v10 (broadcastInDim S100000x128 ![] bcast_S_S100000x128 : (⟨S_, .f32⟩ : BufTy).Contents (Elt F) → (⟨S100000x128, .f32⟩ : BufTy).Contents (Elt F)),
    binary main_v10 main_v9 main_v11 (Host.divf : (⟨S100000x128, .f32⟩ : BufTy).Contents (Elt F) → (⟨S100000x128, .f32⟩ : BufTy).Contents (Elt F) → (⟨S100000x128, .f32⟩ : BufTy).Contents (Elt F)),
    binary main_v11 main_arg0 main_v12 (mulf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3F800000#32),
    unary main_cst_1 main_v13 (broadcastInDim S100000x128 ![] bcast_S_S100000x128 : (⟨S_, .f32⟩ : BufTy).Contents (Elt F) → (⟨S100000x128, .f32⟩ : BufTy).Contents (Elt F)),
    binary main_v13 main_v11 main_v14 (subf : (⟨S100000x128, .f32⟩ : BufTy).Contents (Elt F) → (⟨S100000x128, .f32⟩ : BufTy).Contents (Elt F) → (⟨S100000x128, .f32⟩ : BufTy).Contents (Elt F)),
    binary main_v14 main_arg2 main_v15 (mulf : (⟨S100000x128, .f32⟩ : BufTy).Contents (Elt F) → (⟨S100000x128, .f32⟩ : BufTy).Contents (Elt F) → (⟨S100000x128, .f32⟩ : BufTy).Contents (Elt F)),
    binary main_v12 main_v15 main_v16 (addf : (⟨S100000x128, .f32⟩ : BufTy).Contents (Elt F) → (⟨S100000x128, .f32⟩ : BufTy).Contents (Elt F) → (⟨S100000x128, .f32⟩ : BufTy).Contents (Elt F)),
    binary main_arg1 main_arg3 main_v17 (joinCols : (⟨S100000x128, .f32⟩ : BufTy).Contents (Elt F) → (⟨S100000x128, .f32⟩ : BufTy).Contents (Elt F) → (⟨S100000x256, .f32⟩ : BufTy).Contents (Elt F)),
    unary main_arg6 main_v18 ((transpose S256x128 [1, 0] · transposes_S128x256_S256x128_1_0) : (⟨S128x256, .f32⟩ : BufTy).Contents (Elt F) → (⟨S256x128, .f32⟩ : BufTy).Contents (Elt F)),
    binary main_v17 main_v18 main_v19 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg7 main_v20 (broadcastInDim S1x128 ![1] bcast_S128_S1x128_1 : (⟨S128, .f32⟩ : BufTy).Contents (Elt F) → (⟨S1x128, .f32⟩ : BufTy).Contents (Elt F)),
    unary main_v20 main_v21 (broadcastInDim S100000x128 ![0, 1] bcast_S1x128_S100000x128_0_1 : (⟨S1x128, .f32⟩ : BufTy).Contents (Elt F) → (⟨S100000x128, .f32⟩ : BufTy).Contents (Elt F)),
    binary main_v19 main_v21 main_v22 (addf : (⟨S100000x128, .f32⟩ : BufTy).Contents (Elt F) → (⟨S100000x128, .f32⟩ : BufTy).Contents (Elt F) → (⟨S100000x128, .f32⟩ : BufTy).Contents (Elt F)),
    unary main_v22 main_v23 (Host.negf : (⟨S100000x128, .f32⟩ : BufTy).Contents (Elt F) → (⟨S100000x128, .f32⟩ : BufTy).Contents (Elt F)),
    unary main_v23 main_v24 (Host.exp : (⟨S100000x128, .f32⟩ : BufTy).Contents (Elt F) → (⟨S100000x128, .f32⟩ : BufTy).Contents (Elt F)),
    nullary main_cst_2 (constant S_ .f32 0x3F800000#32),
    unary main_cst_2 main_v25 (broadcastInDim S100000x128 ![] bcast_S_S100000x128 : (⟨S_, .f32⟩ : BufTy).Contents (Elt F) → (⟨S100000x128, .f32⟩ : BufTy).Contents (Elt F)),
    binary main_v25 main_v24 main_v26 (addf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x3F800000#32),
    unary main_cst_3 main_v27 (broadcastInDim S100000x128 ![] bcast_S_S100000x128 : (⟨S_, .f32⟩ : BufTy).Contents (Elt F) → (⟨S100000x128, .f32⟩ : BufTy).Contents (Elt F)),
    binary main_v27 main_v26 main_v28 (Host.divf : (⟨S100000x128, .f32⟩ : BufTy).Contents (Elt F) → (⟨S100000x128, .f32⟩ : BufTy).Contents (Elt F) → (⟨S100000x128, .f32⟩ : BufTy).Contents (Elt F)),
    binary main_v28 main_arg1 main_v29 (mulf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3F800000#32),
    unary main_cst_4 main_v30 (broadcastInDim S100000x128 ![] bcast_S_S100000x128 : (⟨S_, .f32⟩ : BufTy).Contents (Elt F) → (⟨S100000x128, .f32⟩ : BufTy).Contents (Elt F)),
    binary main_v30 main_v28 main_v31 (subf : (⟨S100000x128, .f32⟩ : BufTy).Contents (Elt F) → (⟨S100000x128, .f32⟩ : BufTy).Contents (Elt F) → (⟨S100000x128, .f32⟩ : BufTy).Contents (Elt F)),
    binary main_v31 main_arg3 main_v32 (mulf : (⟨S100000x128, .f32⟩ : BufTy).Contents (Elt F) → (⟨S100000x128, .f32⟩ : BufTy).Contents (Elt F) → (⟨S100000x128, .f32⟩ : BufTy).Contents (Elt F)),
    binary main_v29 main_v32 main_v33 (addf : (⟨S100000x128, .f32⟩ : BufTy).Contents (Elt F) → (⟨S100000x128, .f32⟩ : BufTy).Contents (Elt F) → (⟨S100000x128, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub ..⟩

set_option maxRecDepth 8192 in
set_option maxHeartbeats 2000000 in
/-- Every weakly fair execution of @main terminates with the two results at the two copies' blends of the arguments
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = half (m ((c.tc : Thread nD τ).loc main_arg0)) (m ((c.tc : Thread nD τ).loc main_arg2)) (m ((c.tc : Thread nD τ).loc main_arg4)) (m ((c.tc : Thread nD τ).loc main_arg5))
      ∧ r.2.mem ((c.tc : Thread nD τ).loc main_v33) = half (m ((c.tc : Thread nD τ).loc main_arg1)) (m ((c.tc : Thread nD τ).loc main_arg3)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v16).trans (by after_results_simp; rfl),
      (h c main_v33).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp)⟩)
    (run_seq scopedRefs_eq scopedSems_eq defs main (fun _ => ops) main_eq (fun _ => ops_sub) m ρ)

end Cert.ReferenceIdeal.RefRun

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«134723_g42941083026054_cont_8to1_b_680_23_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.RefValue.lean ====
/-
  The reference's result read at an entry, over the extended reals.

  The joined row `[a ; b]` has `a`'s 128 entries then `b`'s; the transposed weights at `(k, n)` are the weights at
  `(n, k)`; the product's entry `(r, n)` is the sum over the 256 joined positions, which splits into its two halves;
  the bias is the same on every row. So the reference's logit is the one of `Gated.logit`, its quotient
  `1 / (1 + e^(−z))` is the gate, and its blend `g·a + (1 − g)·b` is, for finite arrays, the blend `b + g·(a − b)`.
-/
import proofs.«134723_g42941083026054_cont_8to1_b_680_23_alg».proof.Proof.RefRun
import proofs.«134723_g42941083026054_cont_8to1_b_680_23_alg».proof.Proof.LibHostDotPlain
import proofs.«134723_g42941083026054_cont_8to1_b_680_23_alg».proof.Proof.GateSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.RefRun Idealize.ShloMosaic Idealize.ShloMosaic.ValueIdx Cert.LibFinite

variable (a b : (⟨S100000x128, .f32⟩ : BufTy).Contents (Elt Ideal)) (W : (⟨S128x256, .f32⟩ : BufTy).Contents (Elt Ideal))
  (bias : (⟨S128, .f32⟩ : BufTy).Contents (Elt Ideal))

/-- Every entry of the array of ones is the number one. -/
theorem ones_apply (i : S100000x128.Idx) : ones (F := Ideal) i = 1 := by
  unfold ones
  rw [broadcastInDim_apply _ bcast_S_S100000x128 _ i ix0 (fun a => a.elim0)]
  exact Cert.Gated.word_one

/-- The joined row's first 128 entries are `a`'s. -/
theorem join_lo (r : Fin 100000) (k : Fin 128) :
    joinCols (F := Ideal) a b (ix2 r (⟨k.val, by omega⟩ : Fin 256)) = a (ix2 r k) :=
  concatenate_pair_apply_left (1 : Fin S100000x256.rank) a b concatenates_S100000x128_S100000x128_S100000x256_d1
    (ix2 r (⟨k.val, by omega⟩ : Fin 256)) rfl (ix2 r k) (fun bb => match bb with | ⟨0, _⟩ => rfl | ⟨1, _⟩ => rfl)

/-- The joined row's last 128 entries are `b`'s. -/
theorem join_hi (r : Fin 100000) (k : Fin 128) :
    joinCols (F := Ideal) a b (ix2 r (⟨128 + k.val, by omega⟩ : Fin 256)) = b (ix2 r k) :=
  concatenate_pair_apply_right (1 : Fin S100000x256.rank) a b concatenates_S100000x128_S100000x128_S100000x256_d1
    (ix2 r (⟨128 + k.val, by omega⟩ : Fin 256)) rfl rfl (ix2 r k)
    (fun bb hb => match bb, hb with | ⟨0, _⟩, _ => rfl | ⟨1, _⟩, hb => absurd rfl hb)
    (by show k.val + 128 = 128 + k.val; omega)

/-- The transposed weights at `(k, n)` are the weights at `(n, k)`. -/
theorem transpose_W (k : Fin 256) (n : Fin 128) :
    transpose S256x128 [1, 0] W transposes_S128x256_S256x128_1_0 (ix2 k n) = W (ix2 n k) :=
  transpose_apply [1, 0] W transposes_S128x256_S256x128_1_0 (ix2 k n) (ix2 n k) (fun bb => match bb with
    | ⟨0, _⟩ => rfl
    | ⟨1, _⟩ => rfl)

/-- The bias on every row. -/
theorem bias_apply (r : Fin 100000) (n : Fin 128) :
    broadcastInDim S100000x128 ![0, 1] bcast_S1x128_S100000x128_0_1 (broadcastInDim S1x128 ![1] bcast_S128_S1x128_1 bias) (ix2 r n)
      = bias (ix1 n) := by
  rw [broadcastInDim_apply _ bcast_S1x128_S100000x128_0_1 _ (ix2 r n) (ix2 (0 : Fin 1) n) (fun a => match a with
    | ⟨0, _⟩ => by show (0 : ℕ) = if (1 : ℕ) = 1 then 0 else r.val; rw [if_pos rfl]
    | ⟨1, _⟩ => by show n.val = if (128 : ℕ) = 1 then 0 else n.val; rw [if_neg (by decide)])]
  exact broadcastInDim_apply _ bcast_S128_S1x128_1 bias (ix2 (0 : Fin 1) n) (ix1 n) (fun a => match a with
    | ⟨0, _⟩ => by show n.val = if (128 : ℕ) = 1 then 0 else n.val; rw [if_neg (by decide)])

/-- The reference's logit at `(r, n)` is `Gated.logit`. -/
theorem logits_apply (i : S100000x128.Idx) :
    logits (F := Ideal) a b W bias i = Cert.Gated.logit (R := 100000) a b W (fun n => bias (ix1 n)) (i 0) (i 1) := by
  obtain ⟨r, n, rfl⟩ : ∃ (r : Fin 100000) (n : Fin 128), i = ix2 r n := ⟨i 0, i 1, eq_ix2 i⟩
  show Host.dotGeneral dot_S100000x256_S256x128_S100000x128_1_0_0_1_n_n none (joinCols a b) (transpose S256x128 [1, 0] W transposes_S128x256_S256x128_1_0) (ix2 r n)
      + broadcastInDim S100000x128 ![0, 1] bcast_S1x128_S100000x128_0_1 (broadcastInDim S1x128 ![1] bcast_S128_S1x128_1 bias) (ix2 r n)
    = Cert.Gated.logit (R := 100000) a b W (fun n => bias (ix1 n)) r n
  rw [bias_apply]
  refine congrArg (· + bias (ix1 n)) ?_
  refine (HostDotPlain.dotGeneral_apply (M := 100000) (K := 256) (N := 128) none (joinCols (F := Ideal) a b)
    (transpose S256x128 [1, 0] W transposes_S128x256_S256x128_1_0) (ix2 r n)).trans ?_
  show ∑ k : Fin 256, joinCols (F := Ideal) a b (ix2 r k) * transpose S256x128 [1, 0] W transposes_S128x256_S256x128_1_0 (ix2 k n) = _
  rw [Cert.Gated.sum_halves]
  simp only [join_lo, join_hi]
  exact congrArg₂ (· + ·)
    (Finset.sum_congr rfl fun k _ => congrArg (a (ix2 r k) * ·) (transpose_W W (⟨k.val, by omega⟩ : Fin 256) n))
    (Finset.sum_congr rfl fun k _ => congrArg (b (ix2 r k) * ·) (transpose_W W (⟨128 + k.val, by omega⟩ : Fin 256) n))

/-- The reference's result at an entry: the gate times `a` plus one minus the gate times `b`. -/
theorem half_apply (i : S100000x128.Idx) :
    half (F := Ideal) a b W bias i
      = Ideal.logistic (Cert.Gated.logit (R := 100000) a b W (fun n => bias (ix1 n)) (i 0) (i 1)) * a i
        + (1 - Ideal.logistic (Cert.Gated.logit (R := 100000) a b W (fun n => bias (ix1 n)) (i 0) (i 1))) * b i := by
  show Ideal.div (ones (F := Ideal) i) (ones (F := Ideal) i + Ideal.exp (-(logits (F := Ideal) a b W bias i))) * a i
      + (ones (F := Ideal) i - Ideal.div (ones (F := Ideal) i) (ones (F := Ideal) i + Ideal.exp (-(logits (F := Ideal) a b W bias i)))) * b i = _
  rw [ones_apply, logits_apply]
  rfl

/-- For finite arrays the reference's result is the gated blend. -/
theorem half_eq_blend (ha : ∀ i, IsFin (a i)) (hb : ∀ i, IsFin (b i)) (hW : ∀ i, IsFin (W i)) (hbias : ∀ i, IsFin (bias i)) :
    half (F := Ideal) a b W bias = Cert.Gated.blend (R := 100000) a b W (fun n => bias (ix1 n)) :=
  funext fun i => (half_apply a b W bias i).trans (Cert.Gated.blend_other ha hb hW (fun n => hbias _) i)

end Cert.ReferenceIdeal.RefValue

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«134723_g42941083026054_cont_8to1_b_680_23_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.Finite.lean ====
/-
  The precondition, decoded: every entry of every argument array is a real number.

  The precondition is the conjunction, array by array, of "every entry's absolute value is below +∞".
-/
import proofs.«134723_g42941083026054_cont_8to1_b_680_23_alg».proof.Pre_finite_inputs
import proofs.«134723_g42941083026054_cont_8to1_b_680_23_alg».proof.Proof.LibFinDecode
import Idealize.ShloMosaic.Lib.Affine

noncomputable section

namespace Cert.Pre_finite_inputs.Decode

open Idealize.ShloMosaic Idealize.ShloMosaic.ValueIdx Cert.LibFinite Cert.LibFinDecode Cert.Pre_finite_inputs

variable [Facts]
open Facts

/-- The whole precondition: all eight arrays hold real numbers only. -/
theorem decode (x0 x1 x2 x3 : FVec Ideal S100000x128 .f32) (x4 : FVec Ideal S128x256 .f32) (x5 : FVec Ideal S128 .f32)
    (x6 : FVec Ideal S128x256 .f32) (x7 : FVec Ideal S128 .f32)
    (h : fn (F := Ideal) x0 x1 x2 x3 x4 x5 x6 x7 = fun _ => 1#1) :
    (∀ i, IsFin (x0 i)) ∧ (∀ i, IsFin (x1 i)) ∧ (∀ i, IsFin (x2 i)) ∧ (∀ i, IsFin (x3 i)) ∧ (∀ i, IsFin (x4 i))
      ∧ (∀ i, IsFin (x5 i)) ∧ (∀ i, IsFin (x6 i)) ∧ (∀ i, IsFin (x7 i)) := by
  have h0 := congrFun h ix0
  dsimp only [fn, fn_part1, fn_part2] at h0
  obtain ⟨h33, h37⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨all_fin x0 _ _ _ h3, all_fin x1 _ _ _ h7, all_fin x2 _ _ _ h12, all_fin x3 _ _ _ h17, all_fin x4 _ _ _ h22,
    all_fin x5 _ _ _ h27, all_fin x6 _ _ _ h32, all_fin x7 _ _ _ h37⟩

end Cert.Pre_finite_inputs.Decode

end
-- ==== Proof.lean ====
/-
  Two gated feature-selects, fused: the kernel against its reference, over the extended reals.

  Each program takes four feature arrays of 100000 rows by 128 columns, two weight matrices of 128 by 256 and two
  bias vectors, and returns two arrays: for the pair (a₀, a₁) with weights W and bias b,
      g = 1 / (1 + e^(−z)),  z[r, n] = Σ_k [a₀ ; a₁][r, k] · W[n, k] + b[n],
  blended into one array. The kernel walks 20 row blocks in two phases each (first pair, then second pair), takes the
  logit as two 128-term sums and writes the blend as a₁ + g·(a₀ − a₁); the reference takes one 256-term sum over the
  joined rows and writes g·a₀ + (1 − g)·a₁.

  * The frames: the kernel's body is run once per phase; the first output's buffer is filled in phase 0 and written
    back only after phase 1, through which it is carried unchanged; the reference is a straight line of host operations.
  * The kernel's idealization rewrote nothing, so there is nothing to preserve.
  * The values: both result arrays are the same function of the arguments, `Cert.Gated.blend`. A 256-term sum is the
    sum of its halves everywhere on the extended reals; the two spellings of the blend agree where the arrays are
    finite, which the precondition gives (the gate of a finite logit is finite).
-/
import proofs.«134723_g42941083026054_cont_8to1_b_680_23_alg».proof.Defs
import proofs.«134723_g42941083026054_cont_8to1_b_680_23_alg».proof.Proof.Gen.Kernel
import proofs.«134723_g42941083026054_cont_8to1_b_680_23_alg».proof.Proof.Gen.KernelIdeal
import proofs.«134723_g42941083026054_cont_8to1_b_680_23_alg».proof.Proof.Gen.ReferenceIdeal
import proofs.«134723_g42941083026054_cont_8to1_b_680_23_alg».proof.Proof.Gen.Pre_finite_inputs
import proofs.«134723_g42941083026054_cont_8to1_b_680_23_alg».proof.Proof.KernelFrame
import proofs.«134723_g42941083026054_cont_8to1_b_680_23_alg».proof.Proof.KernelValue
import proofs.«134723_g42941083026054_cont_8to1_b_680_23_alg».proof.Proof.RefValue
import proofs.«134723_g42941083026054_cont_8to1_b_680_23_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- Both programs end with both results at the gated blends of the (agreeing, finite) arguments. -/
theorem algebraic : Cert.algebraic_KernelIdeal_ReferenceIdeal := by
  intro m ρ m' ρ' hpre hagree
  refine ⟨fun c => Cert.KernelIdeal.Out.outI m c, fun c => Cert.KernelIdeal.Out.outC m c, Cert.KernelIdeal.Out.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · obtain ⟨a0, a1, a2, a3, a4, a5, a6, a7⟩ := hagree c
    obtain ⟨f0, f1, f2, f3, f4, f5, f6, f7⟩ := Cert.Pre_finite_inputs.Decode.decode _ _ _ _ _ _ _ _ (hpre c)
    rw [a0, a2, a4, a5]
    exact Cert.ReferenceIdeal.RefValue.half_eq_blend _ _ _ _ f0 f2 f4 f5
  · obtain ⟨a0, a1, a2, a3, a4, a5, a6, a7⟩ := hagree c
    obtain ⟨f0, f1, f2, f3, f4, f5, f6, f7⟩ := Cert.Pre_finite_inputs.Decode.decode _ _ _ _ _ _ _ _ (hpre c)
    rw [a1, a3, a6, a7]
    exact Cert.ReferenceIdeal.RefValue.half_eq_blend _ _ _ _ f1 f3 f6 f7

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
